-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S128x128 : Shape := ⟨2, ![128, 128]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S4x4096x4096 .f32) (main_arg1 : FVec F S128x128 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  main_v8
-- ==== Kernel.lean ====
abbrev S4x4096x4096 : Shape := ⟨3, ![4, 4096, 4096]⟩
abbrev S128x128 : Shape := ⟨2, ![128, 128]⟩
abbrev S524288x128 : Shape := ⟨2, ![524288, 128]⟩
abbrev S16384x128 : Shape := ⟨2, ![16384, 128]⟩

abbrev nBuf : Space → Nat
  | .hbm => 5
  | .vmem => 5
  | .smem => 0
  | _ => 0

abbrev bufTy : (tb : Table) → Fin (tcTables nBuf tb) → BufTy
  | .hbm, ⟨0, _⟩ => ⟨S4x4096x4096, .f32⟩
  | .hbm, ⟨1, _⟩ => ⟨S128x128, .f32⟩
  | .hbm, ⟨2, _⟩ => ⟨S524288x128, .f32⟩
  | .hbm, ⟨3, _⟩ => ⟨S524288x128, .f32⟩
  | .hbm, ⟨4, _⟩ => ⟨S4x4096x4096, .f32⟩
  | .local _ .vmem, ⟨0, _⟩ => ⟨S16384x128, .f32⟩
  | .local _ .vmem, ⟨1, _⟩ => ⟨S16384x128, .f32⟩
  | .local _ .vmem, ⟨2, _⟩ => ⟨S128x128, .f32⟩
  | .local _ .vmem, ⟨3, _⟩ => ⟨S16384x128, .f32⟩
  | .local _ .vmem, ⟨4, _⟩ => ⟨S16384x128, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16384x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16384x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S4x4096x4096_S524288x128 : S4x4096x4096.ShapeCasts S524288x128
  inb_S16384x128_S16384x128_0_0 : ∀ a, (![0, 0] : Fin 2 → Nat) a + S16384x128.size a ≤ S16384x128.size a
  h_S16384x128 : 0 < S16384x128.numel
  shapeCasts_S16384x128_S16384x128 : S16384x128.ShapeCasts S16384x128
  inb_S128x128_S128x128_0_0 : ∀ a, (![0, 0] : Fin 2 → Nat) a + S128x128.size a ≤ S128x128.size a
  h_S128x128 : 0 < S128x128.numel
  shapeCasts_S524288x128_S4x4096x4096 : S524288x128.ShapeCasts S4x4096x4096
  dot_S16384x128_S128x128_S16384x128_1_0_0_1_n_n_wf : DotDims.WF S16384x128 S128x128 S16384x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x128.size a ≤ S524288x128.size a
  hwx0_0 : ∀ i : grid0.Coords, EltTy.bits .f32 = 32 ∨ (Rect.block (s := S524288x128) S16384x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16384x128.size a ≤ S524288x128.size a
  hwx0_2 : ∀ i : grid0.Coords, EltTy.bits .f32 = 32 ∨ (Rect.block (s := S524288x128) S16384x128.size (cc0_transform_2 i) (hinb0_2 i)).WholeWords (EltTy.packing .f32)

variable [Facts₀]

def dot_S16384x128_S128x128_S16384x128_1_0_0_1_n_n : DotDims S16384x128 S128x128 S16384x128 where
  lhsContracting := [1]
  rhsContracting := [0]
  lhsNonContracting := [0]
  rhsNonContracting := [1]
  lhsBatch := []
  rhsBatch := []
  wf := dot_S16384x128_S128x128_S16384x128_1_0_0_1_n_n_wf

abbrev win0_0 : Pipeline.Window sig grid0 :=
  Pipeline.Window.ofSpec (Memref.whole main_v0) S16384x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S16384x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x4096x4096 : Shape := ⟨3, ![4, 4096, 4096]⟩
abbrev S128x128 : Shape := ⟨2, ![128, 128]⟩
abbrev S4x4096x32x128 : Shape := ⟨4, ![4, 4096, 32, 128]⟩

abbrev nBuf : Space → Nat
  | .hbm => 5
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S128x128, .f32⟩
  | .hbm, ⟨2, _⟩ => ⟨S4x4096x32x128, .f32⟩
  | .hbm, ⟨3, _⟩ => ⟨S4x4096x32x128, .f32⟩
  | .hbm, ⟨4, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

class Facts₀ : Prop where
  shapeCasts_S4x4096x4096_S4x4096x32x128 : S4x4096x4096.ShapeCasts S4x4096x32x128
  shapeCasts_S4x4096x32x128_S4x4096x4096 : S4x4096x32x128.ShapeCasts S4x4096x4096
  dot_S4x4096x32x128_S128x128_S4x4096x32x128_3_0_012_1_n_n_wf : DotDims.WF S4x4096x32x128 S128x128 S4x4096x32x128 [3] [0] [0, 1, 2] [1] [] []

variable [Facts₀]

def dot_S4x4096x32x128_S128x128_S4x4096x32x128_3_0_012_1_n_n : DotDims S4x4096x32x128 S128x128 S4x4096x32x128 where
  lhsContracting := [3]
  rhsContracting := [0]
  lhsNonContracting := [0, 1, 2]
  rhsNonContracting := [1]
  lhsBatch := []
  rhsBatch := []
  wf := dot_S4x4096x32x128_S128x128_S4x4096x32x128_3_0_012_1_n_n_wf

class Facts : Prop extends Facts₀ where

variable [Facts]
-- ==== Proof.LibMatmulSum.lean ====
/-
  A plain matrix product  [n, K] x [K, w] -> [n, w]  at the ideal values, for any contraction length K and whichever
  record of dimension numbers spells it: the sum over the record's own contraction index, read at entry (p, q), is the
  sum over k < K of left(p, k) * right(k, q).  A kernel's matrix-unit product into a zero accumulator is that sum.
  The record enters only through six facts about its index maps (one contracted axis of extent K; the left operand
  contracted on its axis 1, the right on its axis 0; the result's axes the left's axis 0 and the right's axis 1).
-/
import Idealize.ShloMosaic.PureOps.Ideal.Laws
import Idealize.ShloMosaic.Lib.Pipeline.Value
import Idealize.ShloMosaic.Lib.ValueIdx

noncomputable section

namespace Cert.LibMatmulSum

open Idealize.ShloMosaic Idealize.ShloMosaic.ValueIdx

/-- The index facts of a plain product with contraction length `K`. -/
structure Plain {n K w : ℕ} (d : DotDims ⟨2, ![n, K]⟩ ⟨2, ![K, w]⟩ ⟨2, ![n, w]⟩) : Prop where
  rank : d.contr.rank = 1
  size : d.contr.size ⟨0, by rw [rank]; exact Nat.one_pos⟩ = K
  l0 : ∀ (i : (⟨2, ![n, w]⟩ : Shape).Idx) (q : d.contr.Idx), (d.lhsIdx i q 0).val = (i 0).val
  l1 : ∀ (i : (⟨2, ![n, w]⟩ : Shape).Idx) (q : d.contr.Idx), (d.lhsIdx i q 1).val = (q ⟨0, by rw [rank]; exact Nat.one_pos⟩).val
  r0 : ∀ (i : (⟨2, ![n, w]⟩ : Shape).Idx) (q : d.contr.Idx), (d.rhsIdx i q 0).val = (q ⟨0, by rw [rank]; exact Nat.one_pos⟩).val
  r1 : ∀ (i : (⟨2, ![n, w]⟩ : Shape).Idx) (q : d.contr.Idx), (d.rhsIdx i q 1).val = (i 1).val

/-- The contraction sum at entry (p, q), re-indexed by k < K. -/
theorem sum_eq {n K w : ℕ} {d : DotDims ⟨2, ![n, K]⟩ ⟨2, ![K, w]⟩ ⟨2, ![n, w]⟩} (hd : Plain d)
    (l : (⟨2, ![n, K]⟩ : Shape).Idx → EReal) (r : (⟨2, ![K, w]⟩ : Shape).Idx → EReal) (p : Fin n) (q : Fin w) :
    (∑ k : d.contr.Idx, l (d.lhsIdx (ix2 p q) k) * r (d.rhsIdx (ix2 p q) k)) = ∑ k : Fin K, l (ix2 p k) * r (ix2 k q) := by
  rw [← Equiv.sum_comp (contrEquiv1 d K hd.rank hd.size).symm]
  refine Finset.sum_congr rfl fun k _ => ?_
  have hk := contrEquiv1_symm_val d K hd.rank hd.size k
  have el : d.lhsIdx (ix2 p q) ((contrEquiv1 d K hd.rank hd.size).symm k) = ix2 p k := funext fun a => Fin.ext (by
    match a with
    | ⟨0, _⟩ => exact hd.l0 _ _
    | ⟨1, _⟩ => exact (hd.l1 _ _).trans hk)
  have er : d.rhsIdx (ix2 p q) ((contrEquiv1 d K hd.rank hd.size).symm k) = ix2 k q := funext fun a => Fin.ext (by
    match a with
    | ⟨0, _⟩ => exact (hd.r0 _ _).trans hk
    | ⟨1, _⟩ => exact hd.r1 _ _)
  rw [el, er]

/-- A matrix-unit product into the zero accumulator, at entry (p, q). -/
theorem matmul_zero_at {n K w : ℕ} {d : DotDims ⟨2, ![n, K]⟩ ⟨2, ![K, w]⟩ ⟨2, ![n, w]⟩} (hd : Plain d) {φ₁ φ₂ : FTy}
    (prec : Option ContractPrecision) (l : FVec Ideal ⟨2, ![n, K]⟩ φ₁) (r : FVec Ideal ⟨2, ![K, w]⟩ φ₂) (p : Fin n) (q : Fin w) :
    FloatOps.matmul d prec l r (constant ⟨2, ![n, w]⟩ .f32 0x00000000#32) (ix2 p q) = ∑ k : Fin K, l (ix2 p k) * r (ix2 k q) :=
  (Ideal.matmul_constant_zero_apply d prec l r (ix2 p q)).trans (sum_eq hd l r p q)

end Cert.LibMatmulSum

end
-- ==== Proof.KernelBody.lean ====
/-
  What the kernel body stores, entry by entry.

  At a grid point the body loads a block of 16384 rows of the tall matrix and the whole 128 x 128 matrix, multiplies
  them on the matrix unit into a zero accumulator and stores the product.  Entry (p, q) of what it stores is therefore
  the sum over k < 128 of  rows(p, k) * matrix(k, q): the product's dimension numbers contract the left operand's
  axis 1 with the right operand's axis 0 and keep the left's axis 0 and the right's axis 1, and the cast in front of
  the product is between equal shapes.
-/
import proofs.«182196_j88957362634992_2_alg».proof.Proof.Gen.KernelIdeal.Skeleton
import proofs.«182196_j88957362634992_2_alg».proof.Proof.LibMatmulSum
import Idealize.ShloMosaic.Lib.Pipeline.Value

noncomputable section

namespace Cert.KernelIdeal.Body

open Cert.KernelIdeal Cert.KernelIdeal.Gen Idealize.ShloMosaic Idealize.ShloMosaic.ValueIdx

/-- The body's product is a plain [16384, 128] x [128, 128] one: one contracted axis of length 128, the left operand
    contracted on its axis 1 and the right on its axis 0. -/
theorem plain : Cert.LibMatmulSum.Plain dot_S16384x128_S128x128_S16384x128_1_0_0_1_n_n where
  rank := rfl
  size := rfl
  l0 := fun i q => by
    unfold DotDims.lhsIdx
    rw [dif_neg (show ¬(0 : Fin S16384x128.rank) ∈ dot_S16384x128_S128x128_S16384x128_1_0_0_1_n_n.lhsBatch by decide),
      dif_pos (show (0 : Fin S16384x128.rank) ∈ dot_S16384x128_S128x128_S16384x128_1_0_0_1_n_n.lhsNonContracting by decide)]
    rfl
  l1 := fun i q => dot_S16384x128_S128x128_S16384x128_1_0_0_1_n_n.lhsIdx_val_of_single rfl i q
  r0 := fun i q => dot_S16384x128_S128x128_S16384x128_1_0_0_1_n_n.rhsIdx_val_of_single rfl i q
  r1 := fun i q => by
    unfold DotDims.rhsIdx
    rw [dif_neg (show ¬(1 : Fin S128x128.rank) ∈ dot_S16384x128_S128x128_S16384x128_1_0_0_1_n_n.rhsBatch by decide),
      dif_pos (show (1 : Fin S128x128.rank) ∈ dot_S16384x128_S128x128_S16384x128_1_0_0_1_n_n.rhsNonContracting by decide)]
    rfl

/-- Entry (p, q) of the stored product: row p of the loaded rows against column q of the loaded matrix. -/
theorem stored_at (rows : FVec Ideal S16384x128 .f32) (mat : FVec Ideal S128x128 .f32) (p : Fin 16384) (q : Fin 128) :
    k0_pay1 (F := Ideal) rows mat (ix2 p q) = ∑ k : Fin 128, rows (ix2 p k) * mat (ix2 k q) := by
  unfold k0_pay1
  rw [shapeCast_self]
  exact Cert.LibMatmulSum.matmul_zero_at plain (some .fp32) rows mat p q

end Cert.KernelIdeal.Body

end
-- ==== Proof.Spec.lean ====
/-
  The block transform as one function of its two arguments, entry by entry.

  The array x of shape [4, 4096, 4096] is cut along its last axis into 32 chunks of 128 entries; each chunk, a row
  vector, is multiplied on the right by the 128 x 128 matrix h.  Entry (a, b, c) of the result lies in chunk c / 128
  at lane c % 128, so it is the sum over k < 128 of  x(a, b, (c / 128) * 128 + k) * h(k, c % 128).

  Laid out row-major, the chunks of x are the 524288 rows of a tall [524288, 128] matrix (chunk c / 128 of (a, b) is
  row (a * 4096 + b) * 32 + c / 128), and the transform is that tall matrix times h, laid back out as [4, 4096, 4096].
  `tall_eq` says so: reshaping, taking the tall product row by row and reshaping back gives the same entries, because
  a reshape keeps every entry at its row-major position.
-/
import Idealize.ShloMosaic.PureOps.Ideal
import Idealize.ShloMosaic.Lib.ValueIdx
import Idealize.ShloMosaic.Lib.Pipeline.Value

noncomputable section

namespace Cert.BlockTransform

open Idealize.ShloMosaic Idealize.ShloMosaic.ValueIdx

/-- The argument and result shape. -/
abbrev Arr : Shape := ⟨3, ![4, 4096, 4096]⟩
/-- The fixed matrix's shape. -/
abbrev Mat : Shape := ⟨2, ![128, 128]⟩
/-- The tall matrix whose rows are the chunks. -/
abbrev Tall : Shape := ⟨2, ![524288, 128]⟩

/-- The row of the tall matrix that holds the chunk of entry (a, b, c). -/
def chunkRow (a : Fin 4) (b : Fin 4096) (c : Fin 4096) : Fin 524288 :=
  ⟨(a.val * 4096 + b.val) * 32 + c.val / 128, by have := a.isLt; have := b.isLt; have := c.isLt; omega⟩

/-- The position of entry c inside its chunk. -/
def lane (c : Fin 4096) : Fin 128 := ⟨c.val % 128, Nat.mod_lt _ (by decide)⟩

/-- Entry k of the chunk that holds c, as a position on the last axis. -/
def chunkEntry (c : Fin 4096) (k : Fin 128) : Fin 4096 :=
  ⟨c.val / 128 * 128 + k.val, by have := c.isLt; have := k.isLt; omega⟩

/-- The transform: each chunk of the last axis times the matrix. -/
def blockTransform (x : Arr.Idx → EReal) (h : Mat.Idx → EReal) : Arr.Idx → EReal :=
  fun i => ∑ k : Fin 128, x (ix3 (n0 := 4) (n1 := 4096) (n2 := 4096) (i 0) (i 1) (chunkEntry (i 2) k))
    * h (ix2 (n0 := 128) (n1 := 128) k (lane (i 2)))

theorem blockTransform_at (x : Arr.Idx → EReal) (h : Mat.Idx → EReal) (a : Fin 4) (b : Fin 4096) (c : Fin 4096) :
    blockTransform x h (ix3 a b c) = ∑ k : Fin 128, x (ix3 a b (chunkEntry c k)) * h (ix2 k (lane c)) := rfl

/-- A tall matrix times the fixed matrix, row by row. -/
def tallTimes (X : Tall.Idx → EReal) (h : Mat.Idx → EReal) : Tall.Idx → EReal :=
  fun j => ∑ k : Fin 128, X (ix2 (n0 := 524288) (n1 := 128) (j 0) k) * h (ix2 (n0 := 128) (n1 := 128) k (j 1))

theorem tallTimes_at (X : Tall.Idx → EReal) (h : Mat.Idx → EReal) (p : Fin 524288) (q : Fin 128) :
    tallTimes X h (ix2 p q) = ∑ k : Fin 128, X (ix2 p k) * h (ix2 k q) := rfl

/-- Reshaped to the tall matrix, multiplied and reshaped back, the array is the block transform. -/
theorem tall_eq (x : Arr.Idx → EReal) (h : Mat.Idx → EReal) (hc : Arr.ShapeCasts Tall) (hc' : Tall.ShapeCasts Arr) :
    shapeCast Arr (tallTimes (shapeCast Tall x hc) h) hc' = blockTransform x h := by
  funext i
  obtain ⟨a, b, c, rfl⟩ : ∃ (a : Fin 4) (b : Fin 4096) (c : Fin 4096), i = ix3 a b c := ⟨i 0, i 1, i 2, eq_ix3 i⟩
  have ha := a.isLt; have hb := b.isLt; have hcc := c.isLt
  rw [shapeCast_apply _ hc' (ix3 a b c) (ix2 (chunkRow a b c) (lane c)) (by
    rw [Shape.rowMajor_val_two, Shape.rowMajor_val_three]
    show ((a.val * 4096 + b.val) * 32 + c.val / 128) * 128 + c.val % 128 = (a.val * 4096 + b.val) * 4096 + c.val
    omega)]
  rw [tallTimes_at, blockTransform_at]
  refine Finset.sum_congr rfl fun k _ => ?_
  have hk := k.isLt
  rw [shapeCast_apply x hc (ix2 (chunkRow a b c) k) (ix3 a b (chunkEntry c k)) (by
    rw [Shape.rowMajor_val_three, Shape.rowMajor_val_two]
    show (a.val * 4096 + b.val) * 4096 + (c.val / 128 * 128 + k.val) = ((a.val * 4096 + b.val) * 32 + c.val / 128) * 128 + k.val
    omega)]

end Cert.BlockTransform

end
-- ==== Proof.KernelBlocks.lean ====
/-
  From blocks to the whole tall product.

  The grid has 32 points.  Point t reads rows 16384 t ... 16384 t + 16383 of the tall matrix (the reshaped x, as the
  region finds it) and the whole 128 x 128 matrix, and writes the same rows of the output.  What it writes is those
  rows of ONE function of the two arrays, the tall matrix times the fixed matrix: entry (p, q) of the stored block is
  row p of the loaded rows against column q of the matrix, and row p of block t is row 16384 t + p of the array.  The
  32 row blocks tile the 524288 rows (row r lies in block r / 16384), so after the last point the output array is the
  tall product everywhere.
-/
import proofs.«182196_j88957362634992_2_alg».proof.Proof.Gen.KernelIdeal.Frame
import proofs.«182196_j88957362634992_2_alg».proof.Proof.KernelBody
import proofs.«182196_j88957362634992_2_alg».proof.Proof.Spec
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.BlockTransform

variable (m : (ℓ : Loc nD τ sig) → Buf (Elt Ideal) ℓ) (ρ : Dev nD → PrngReg)

theorem zero_offsets : (![0, 0] : Fin 2 → Nat) = fun _ => 0 := funext fun a => by fin_cases a <;> rfl

/-- The three index maps over the grid: the rows window and the output window name the same row block, below 32; the
    matrix window, and every window's column block, stay at 0. -/
theorem index_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 31 :=
  (by decide +kernel : ∀ t : Fin grid0.N, _)

/-- Every one of the 32 row blocks is some point's. -/
theorem index_onto : ∀ q0 : Fin 32, ∃ t : Fin cfg0.N, win0_2.index t = ![q0.val, 0] :=
  (by decide +kernel : ∀ q0 : Fin 32, ∃ t : Fin grid0.N, win0_2.index t = ![q0.val, 0])

/-- One stored entry against the arrays: if row (j 0) of the loaded rows is row (i 0) of the tall array X, and column
    (j 1) of the loaded matrix is column (i 1) of H, entry j of what the body stores is entry i of X times H. -/
theorem stored_entry (X : Tall.Idx → EReal) (H : Mat.Idx → EReal) (rows : FVec Ideal S16384x128 .f32) (mat : FVec Ideal S128x128 .f32)
    (j : S16384x128.Idx) (i : Tall.Idx)
    (hrows : ∀ k : Fin 128, rows (ix2 (n0 := 16384) (n1 := 128) (j 0) k) = X (ix2 (n0 := 524288) (n1 := 128) (i 0) k))
    (hmat : ∀ k : Fin 128, mat (ix2 (n0 := 128) (n1 := 128) k (j 1)) = H (ix2 (n0 := 128) (n1 := 128) k (i 1))) :
    k0_pay1 (F := Ideal) rows mat j = tallTimes X H i := by
  obtain ⟨p, q, rfl⟩ : ∃ (p : Fin 16384) (q : Fin 128), j = ix2 p q := ⟨j 0, j 1, eq_ix2 j⟩
  obtain ⟨r, s, rfl⟩ : ∃ (r : Fin 524288) (s : Fin 128), i = ix2 r s := ⟨i 0, i 1, eq_ix2 i⟩
  rw [Cert.KernelIdeal.Body.stored_at, tallTimes_at]
  refine Finset.sum_congr rfl fun k _ => ?_
  have hr : rows (ix2 p k) = X (ix2 r k) := hrows k
  have hm : mat (ix2 k q) = H (ix2 k s) := hmat k
  rw [hr, hm]

/-- WHAT POINT t WRITES BACK is block t of the tall product of the arrays as the region finds them. -/
theorem flushed_eq (c : Dev nD) (t : Fin cfg0.N) :
    (dats m 0 c).flushed 2 t = ((cfg0.win 2).blk t).view.read (Elt Ideal) (tallTimes (V m c main_v0) (V m c main_arg1)) := by
  show (cfg0.win 2).cut (grid0.coords t) ((dats m 0 c).after 2 t) = _
  rw [after0_2]
  unfold out0_2
  rw [View.canon_unit_zero zero_offsets]
  simp only [View.ld_unit_zero (S := S16384x128) zero_offsets, View.ld_unit_zero (S := S128x128) zero_offsets]
  obtain ⟨e0, e1, e2, e3, e4, e5⟩ := index_facts t
  funext j
  have hj0 : (j 0).val < 16384 := (j 0).isLt
  have hj1 : (j 1).val < 128 := (j 1).isLt
  show k0_pay1 (F := Ideal) (iblk m c 0 t) (iblk m c 1 t) j
    = tallTimes (V m c main_v0) (V m c main_arg1) (((cfg0.win 2).blk t).view.emb j)
  refine stored_entry _ _ _ _ j _ (fun k => ?_) (fun k => ?_)
  · have hk := k.isLt
    show V m c main_v0 (((cfg0.win 0).blk t).view.emb (ix2 (n0 := 16384) (n1 := 128) (j 0) k)) = _
    have h0 : ((cfg0.win 0).blk t).view.emb (ix2 (n0 := 16384) (n1 := 128) (j 0) k)
        = ix2 (n0 := 524288) (n1 := 128) ((((cfg0.win 2).blk t).view.emb j) 0) k := by
      funext a; apply Fin.ext
      match a with
      | ⟨0, _⟩ => show win0_0.index t (0 : Fin 2) * 16384 + 1 * (j 0).val = win0_2.index t (0 : Fin 2) * 16384 + 1 * (j 0).val; omega
      | ⟨1, _⟩ => show win0_0.index t (1 : Fin 2) * 128 + 1 * k.val = k.val; omega
    rw [h0]
  · have hk := k.isLt
    show V m c main_arg1 (((cfg0.win 1).blk t).view.emb (ix2 (n0 := 128) (n1 := 128) k (j 1))) = _
    have h1 : ((cfg0.win 1).blk t).view.emb (ix2 (n0 := 128) (n1 := 128) k (j 1))
        = ix2 (n0 := 128) (n1 := 128) k ((((cfg0.win 2).blk t).view.emb j) 1) := by
      funext a; apply Fin.ext
      match a with
      | ⟨0, _⟩ => show win0_1.index t (0 : Fin 2) * 128 + 1 * k.val = k.val; omega
      | ⟨1, _⟩ => show win0_1.index t (1 : Fin 2) * 128 + 1 * (j 1).val = win0_2.index t (1 : Fin 2) * 128 + 1 * (j 1).val; omega
    rw [h1]

/-- An index of the output array is in point t's block iff each coordinate is in the block's range on its axis. -/
theorem mem_block (t : Fin cfg0.N) (i : S524288x128.Idx) :
    i ∈ ((cfg0.win 2).blk t).view.set ↔ ∀ a : Fin 2, win0_2.index t a * S16384x128.size a ≤ (i a).val ∧ (i a).val < win0_2.index t a * S16384x128.size a + S16384x128.size a := by
  show i ∈ ((View.whole main_v1).slice (win0_2.rect t)).set ↔ _
  rw [View.set_slice_whole, Rect.mem_set_unit]
  exact Iff.rfl

/-- Every entry of the output array is written back by some point: row r by the point whose row block is r / 16384. -/
theorem covered (i : S524288x128.Idx) :
    ∃ t : Fin cfg0.N, (cfg0.win 2).flush t = true ∧ i ∈ ((cfg0.win 2).blk t).view.set := by
  have hi0 : (i 0).val < 524288 := (i 0).isLt
  have hi1 : (i 1).val < 128 := (i 1).isLt
  obtain ⟨t, ht⟩ := index_onto ⟨(i 0).val / 16384, by omega⟩
  have q0 : win0_2.index t (0 : Fin 2) = (i 0).val / 16384 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 16384 ≤ (i 0).val ∧ (i 0).val < win0_2.index t (0 : Fin 2) * 16384 + 16384; omega
  | ⟨1, _⟩ => show win0_2.index t (1 : Fin 2) * 128 ≤ (i 1).val ∧ (i 1).val < win0_2.index t (1 : Fin 2) * 128 + 128; omega

/-- THE OUTPUT ARRAY after the last point: the tall product of the arrays as the region finds them. -/
theorem final (c : Dev nD) : (dats m 0 c).arrAt 2 cfg0.N = tallTimes (V m c main_v0) (V m c main_arg1) :=
  (dats m 0 c).arrAt_eq_of_cover 2 _ (fun t _ => flushed_eq m c t) covered

end Cert.KernelIdeal.Blocks

end
-- ==== Proof.KernelRun.lean ====
/-
  The kernel's result as a function of its arguments.

  Before the region the program reshapes x to the tall [524288, 128] matrix; the region leaves the tall product of that
  matrix and h in the output array; after the region the program reshapes the output array to [4, 4096, 4096].  So the
  result is: x reshaped, multiplied row by row by h, reshaped back, which is the block transform of x by h.
-/
import proofs.«182196_j88957362634992_2_alg».proof.Proof.KernelBlocks
import Idealize.ShloMosaic.Lib.StableHlo.Run

noncomputable section

open Idealize.ShloMosaic Idealize.ShloMosaic.TcCoe Idealize.SL.Sem Idealize.ShloMosaic.ValueIdx Idealize.ShloMosaic.StableHlo
open Idealize.ShloMosaic.Pipeline (Dat)

namespace Cert.KernelIdeal.Result

open Cert.KernelIdeal Cert.KernelIdeal.Gen Cert.BlockTransform

variable (m : (ℓ : Loc nD τ sig) → Buf (Elt Ideal) ℓ) (ρ : Dev nD → PrngReg)

/-- The rows the region finds: x reshaped to the tall matrix by the one host operation before it. -/
theorem entry_rows (c : Dev nD) :
    V m c main_v0 = shapeCast _ (m ((c : Thread nD τ).loc main_arg0)) shapeCasts_S4x4096x4096_S524288x128 := by
  show StableHlo.after hostOps0 (fun b => m (c, b)) (Proc.devRef .tc main_v0) = _
  after_results
  rfl

/-- The result buffer after the one host operation that follows the region: the output array reshaped. -/
theorem tail_eq (c : Dev nD) :
    Pipeline.afterTail₀ cfgs (dats m) 0 (V0 m) [hostOps1] c main_v2
      = shapeCast _ ((dats m 0 c).arrAt 2 cfg0.N) shapeCasts_S524288x128_S4x4096x4096 := by
  unfold Pipeline.afterTail₀
  show StableHlo.after hostOps1 _ (Proc.devRef .tc main_v2) = _
  after_results
  have e : Pipeline.withArrays (cfgs 0).spec c (V0 m c) (fun w => (dats m 0 c).arrAt w (cfgs 0).N) (Proc.devRef .tc main_v1)
      = (dats m 0 c).arrAt 2 cfg0.N :=
    Pipeline.withArrays_arr spec0 launch0.win.arr_inj c (V0 m c) _ 2
  rw [e]
  rfl

/-- The result buffer holds the block transform of the arguments as launched. -/
theorem result_eq (c : Dev nD) :
    Pipeline.afterTail₀ cfgs (dats m) 0 (V0 m) [hostOps1] c main_v2
      = blockTransform (m ((c : Thread nD τ).loc main_arg0)) (m ((c : Thread nD τ).loc main_arg1)) := by
  rw [tail_eq, Cert.KernelIdeal.Blocks.final, entry_rows, V_main_arg1]
  exact tall_eq _ _ _ _

/-- THE RUN, READ: every weakly fair execution terminates with the result buffer at the block transform of the arguments
    and the arguments unchanged. -/
theorem run : θ_run defs (onTc (τ := τ) (main (F := Ideal))) ⟨m, fun _ => 0, ρ⟩ fun r => ∀ c : Dev nD,
      r.2.mem ((c.tc : Thread nD τ).loc main_v2) = blockTransform (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v2 (Pipeline.mem_restRefs_of main_v2 (by decide) (by decide))).trans (result_eq m c),
       ((h c).2 main_arg0 (Pipeline.mem_restRefs_of main_arg0 (by decide) (by decide))).trans (W_main_arg0 m (dats m) c),
       ((h c).1 1).trans (((dats m 0 c).arrAt_in 1 rfl _).trans ((A_eq m c 1).trans (V_main_arg1 m c)))⟩)
    (run_main m ρ)

end Cert.KernelIdeal.Result

end
-- ==== Proof.RefForm.lean ====
/-
  The reference computes the block transform.

  It reshapes x to [4, 4096, 32, 128] (axis 2 numbers the chunks, axis 3 the position inside a chunk), contracts
  axis 3 against the matrix's axis 0 and reshapes back.  Read at entry (a, b, c): the last reshape sends (a, b, c) to
  (a, b, c / 128, c % 128); the contraction there is the sum over k < 128 of the reshaped x at (a, b, c / 128, k)
  times the matrix at (k, c % 128); and the first reshape reads x at (a, b, (c / 128) * 128 + k).  Both reshapes keep
  row-major positions, so each coordinate identity is arithmetic of quotients and remainders by 128, 4096 and 4096^2.
-/
import proofs.«182196_j88957362634992_2_alg».proof.Proof.Gen.ReferenceIdeal.Read
import proofs.«182196_j88957362634992_2_alg».proof.Proof.Spec

noncomputable section

namespace Cert.ReferenceIdeal.Form

open Cert.ReferenceIdeal Cert.ReferenceIdeal.Read Cert.BlockTransform Idealize.ShloMosaic Idealize.ShloMosaic.ValueIdx

/-- Where the reference reads x for term k of entry (a, b, c): position (c / 128) * 128 + k of row (a, b). -/
theorem left_index (a : Fin 4) (b : Fin 4096) (c : Fin 4096) (k : Fin 128) :
    idx_main_v0 (lidx_main_v1 (idx_main_v2 (ix3 a b c)) k) = ix3 a b (chunkEntry c k) := by
  have ha := a.isLt; have hb := b.isLt; have hc := c.isLt; have hk := k.isLt
  funext d
  apply Fin.ext
  match d with
  | ⟨0, _⟩ => show ((((((a.val * 4096 + b.val) * 4096 + c.val) / 16777216) * 4096 + ((a.val * 4096 + b.val) * 4096 + c.val) / 4096 % 4096) * 32 + ((a.val * 4096 + b.val) * 4096 + c.val) / 128 % 32) * 128 + k.val) / 16777216 = a.val; omega
  | ⟨1, _⟩ => show ((((((a.val * 4096 + b.val) * 4096 + c.val) / 16777216) * 4096 + ((a.val * 4096 + b.val) * 4096 + c.val) / 4096 % 4096) * 32 + ((a.val * 4096 + b.val) * 4096 + c.val) / 128 % 32) * 128 + k.val) / 4096 % 4096 = b.val; omega
  | ⟨2, _⟩ => show ((((((a.val * 4096 + b.val) * 4096 + c.val) / 16777216) * 4096 + ((a.val * 4096 + b.val) * 4096 + c.val) / 4096 % 4096) * 32 + ((a.val * 4096 + b.val) * 4096 + c.val) / 128 % 32) * 128 + k.val) % 4096 = c.val / 128 * 128 + k.val; omega

/-- Where it reads the matrix: row k, column c % 128. -/
theorem right_index (a : Fin 4) (b : Fin 4096) (c : Fin 4096) (k : Fin 128) :
    ridx_main_v1 (idx_main_v2 (ix3 a b c)) k = ix2 k (lane c) := by
  have ha := a.isLt; have hb := b.isLt; have hc := c.isLt
  funext d
  apply Fin.ext
  match d with
  | ⟨0, _⟩ => rfl
  | ⟨1, _⟩ => show ((a.val * 4096 + b.val) * 4096 + c.val) % 128 = c.val % 128; omega

/-- The reference's result, as a function of its two arguments, is the block transform. -/
theorem result_eq (x : (⟨S4x4096x4096, .f32⟩ : BufTy).Contents (Elt Ideal)) (h : (⟨S128x128, .f32⟩ : BufTy).Contents (Elt Ideal)) :
    val_main_v2 (F := Ideal) x h = blockTransform x h := by
  funext i
  obtain ⟨a, b, c, rfl⟩ : ∃ (a : Fin 4) (b : Fin 4096) (c : Fin 4096), i = ix3 a b c := ⟨i 0, i 1, i 2, eq_ix3 i⟩
  rw [val_main_v2_apply, val_main_v1_apply, blockTransform_at]
  refine Finset.sum_congr rfl fun k _ => ?_
  rw [val_main_v0_apply, left_index, right_index]

end Cert.ReferenceIdeal.Form

end
-- ==== Proof.lean ====
/-
  A block transform on the matrix unit against its einsum form.

  Both programs take x of shape [4, 4096, 4096] and a 128 x 128 matrix h and return, at entry (a, b, c), the sum over
  k < 128 of  x(a, b, (c / 128) * 128 + k) * h(k, c % 128): every chunk of 128 consecutive entries of the last axis,
  as a row vector, times h.

  The kernel reshapes x to a tall [524288, 128] matrix whose rows are the chunks, multiplies it by h in 32 row blocks of
  16384 rows (each block one product into a zero accumulator) and reshapes the product back.  The reference reshapes x
  to [4, 4096, 32, 128], contracts the last axis against h's first and reshapes back.  Over the extended reals the
  zero accumulator adds nothing, a reshape keeps every entry at its row-major position, and the two sums run over the
  same 128 terms in the same order, so the two results agree entry by entry, with no appeal to finiteness of the inputs.

  The kernel's value is read off its frame run: the payload at an entry (KernelBody), the 32 row blocks assembled into
  the whole tall product (KernelBlocks), the reshapes before and after the region (KernelRun).  The reference's value is
  its run read one operation at a time (RefForm).  Both are the function `blockTransform` of Spec.  The idealization
  rewrote nothing, so that conjunct is trivial.
-/
import proofs.«182196_j88957362634992_2_alg».proof.Defs
import proofs.«182196_j88957362634992_2_alg».proof.Proof.Gen.Kernel
import proofs.«182196_j88957362634992_2_alg».proof.Proof.Gen.Kernel.Frame
import proofs.«182196_j88957362634992_2_alg».proof.Proof.Gen.KernelIdeal
import proofs.«182196_j88957362634992_2_alg».proof.Proof.Gen.KernelIdeal.Frame
import proofs.«182196_j88957362634992_2_alg».proof.Proof.Gen.ReferenceIdeal
import proofs.«182196_j88957362634992_2_alg».proof.Proof.Gen.ReferenceIdeal.Run
import proofs.«182196_j88957362634992_2_alg».proof.Proof.Gen.ReferenceIdeal.Read
import proofs.«182196_j88957362634992_2_alg».proof.Proof.Gen.Pre_finite_inputs
import proofs.«182196_j88957362634992_2_alg».proof.Proof.KernelRun
import proofs.«182196_j88957362634992_2_alg».proof.Proof.RefForm
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does its idealization. -/
theorem frame_ideal : Cert.frame_KernelIdeal := fun m ρ _ => Cert.KernelIdeal.Gen.frame m ρ

/-- The reference runs and leaves its arguments unchanged: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on x and h both programs end with the block transform of x by h in their result. -/
theorem algebraic : Cert.algebraic_KernelIdeal_ReferenceIdeal := by
  intro m ρ m' ρ' _ hagree
  refine ⟨fun c => Cert.BlockTransform.blockTransform
      (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.KernelIdeal.Result.run m ρ, ?_⟩
  refine (θ_run Cert.ReferenceIdeal.defs _ _).mono (fun _ h c => ⟨?_, (h c).2⟩)
    (Cert.ReferenceIdeal.Value.run (F := Ideal) m' ρ')
  refine (h c).1.trans ((Cert.ReferenceIdeal.Read.val_main_v2_eq _ _).trans
    ((Cert.ReferenceIdeal.Form.result_eq _ _).trans ?_))
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
